-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S1024x8192 : Shape := ⟨2, ![1024, 8192]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S8192 : Shape := ⟨1, ![8192]⟩

abbrev nBuf : Space → Nat
  | .hbm => 35
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S8192x1024, .f32⟩
  | .hbm, ⟨17, _⟩ => ⟨S8192x1024, .bf16⟩
  | .hbm, ⟨18, _⟩ => ⟨S1024x8192, .bf16⟩
  | .hbm, ⟨19, _⟩ => ⟨S8192x1, .f32⟩
  | .hbm, ⟨20, _⟩ => ⟨S8192, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  bitsLt_bf16_f32 : FTy.bits .bf16 < FTy.bits .f32
  transposes_S8192x1024_S1024x8192_1_0 : S8192x1024.Transposes [1, 0] S1024x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x8192.size a
  hwx0_1 : ∀ i : grid0.Coords, EltTy.bits .bf16 = 32 ∨ (Rect.block (s := S1024x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S1024x8192 : Shape := ⟨2, ![1024, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S8192x1024, .f32⟩
  | .hbm, ⟨17, _⟩ => ⟨S1024x8192, .f32⟩
  | .hbm, ⟨18, _⟩ => ⟨S8192x8192, .f32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096x1, .i32⟩
  | .hbm, ⟨40, _⟩ => ⟨S4096x2, .i32⟩
  | .hbm, ⟨41, _⟩ => ⟨S4096, .f32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x1, .i32⟩
  | .hbm, ⟨63, _⟩ => ⟨S4096x2, .i32⟩
  | .hbm, ⟨64, _⟩ => ⟨S4096, .f32⟩
  | .hbm, ⟨65, _⟩ => ⟨S8192, .f32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x8192, .i1⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call2_v0 : Ref sig .tc := ⟨.hbm, 19, rfl⟩
abbrev main_call2_v1 : Ref sig .tc := ⟨.hbm, 20, rfl⟩
abbrev main_call2_c : Ref sig .tc := ⟨.hbm, 21, rfl⟩
abbrev main_call2_v2 : Ref sig .tc := ⟨.hbm, 22, rfl⟩
abbrev main_call2_v3 : Ref sig .tc := ⟨.hbm, 23, rfl⟩
abbrev main_call2_c_0 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_c_2 : Ref sig .tc := ⟨.hbm, 31, rfl⟩
abbrev main_call2_v9 : Ref sig .tc := ⟨.hbm, 32, rfl⟩
abbrev main_call2_v10 : Ref sig .tc := ⟨.hbm, 33, rfl⟩
abbrev main_call2_c_3 : Ref sig .tc := ⟨.hbm, 34, rfl⟩
abbrev main_call2_v11 : Ref sig .tc := ⟨.hbm, 35, rfl⟩
abbrev main_call2_v12 : Ref sig .tc := ⟨.hbm, 36, rfl⟩
abbrev main_call2_v13 : Ref sig .tc := ⟨.hbm, 37, rfl⟩
abbrev main_call2_v14 : Ref sig .tc := ⟨.hbm, 38, rfl⟩
abbrev main_call2_v15 : Ref sig .tc := ⟨.hbm, 39, rfl⟩
abbrev main_call2_v16 : Ref sig .tc := ⟨.hbm, 40, rfl⟩
abbrev main_v9 : Ref sig .tc := ⟨.hbm, 41, rfl⟩
abbrev main_call3_v0 : Ref sig .tc := ⟨.hbm, 42, rfl⟩
abbrev main_call3_v1 : Ref sig .tc := ⟨.hbm, 43, rfl⟩
abbrev main_call3_c : Ref sig .tc := ⟨.hbm, 44, rfl⟩
abbrev main_call3_v2 : Ref sig .tc := ⟨.hbm, 45, rfl⟩
abbrev main_call3_v3 : Ref sig .tc := ⟨.hbm, 46, rfl⟩
abbrev main_call3_c_0 : Ref sig .tc := ⟨.hbm, 47, rfl⟩
abbrev main_call3_v4 : Ref sig .tc := ⟨.hbm, 48, rfl⟩
abbrev main_call3_v5 : Ref sig .tc := ⟨.hbm, 49, rfl⟩
abbrev main_call3_c_1 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_c_2 : Ref sig .tc := ⟨.hbm, 54, rfl⟩
abbrev main_call3_v9 : Ref sig .tc := ⟨.hbm, 55, rfl⟩
abbrev main_call3_v10 : Ref sig .tc := ⟨.hbm, 56, rfl⟩
abbrev main_call3_c_3 : Ref sig .tc := ⟨.hbm, 57, rfl⟩
abbrev main_call3_v11 : Ref sig .tc := ⟨.hbm, 58, rfl⟩
abbrev main_call3_v12 : Ref sig .tc := ⟨.hbm, 59, rfl⟩
abbrev main_call3_v13 : Ref sig .tc := ⟨.hbm, 60, rfl⟩
abbrev main_call3_v14 : Ref sig .tc := ⟨.hbm, 61, rfl⟩
abbrev main_call3_v15 : Ref sig .tc := ⟨.hbm, 62, rfl⟩
abbrev main_call3_v16 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_c : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_cst : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_0 : Ref sig .tc := ⟨.hbm, 77, rfl⟩
abbrev main_call4_v0 : Ref sig .tc := ⟨.hbm, 78, rfl⟩
abbrev main_call4_v1 : Ref sig .tc := ⟨.hbm, 79, rfl⟩
abbrev main_v21 : Ref sig .tc := ⟨.hbm, 80, rfl⟩
abbrev main_cst_1 : Ref sig .tc := ⟨.hbm, 81, rfl⟩
abbrev main_v22 : Ref sig .tc := ⟨.hbm, 82, rfl⟩
abbrev main_cst_2 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_3 : Ref sig .tc := ⟨.hbm, 89, rfl⟩
abbrev main_v28 : Ref sig .tc := ⟨.hbm, 90, rfl⟩
abbrev main_cst_4 : Ref sig .tc := ⟨.hbm, 91, rfl⟩
abbrev main_v29 : Ref sig .tc := ⟨.hbm, 92, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  transposes_S8192x1024_S1024x8192_1_0 : S8192x1024.Transposes [1, 0] S1024x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Pieces.lean ====
/-
  What the body leaves behind at a grid point, case by case, as the body's own arithmetic.

  The body keeps a [1024,1] column of running totals in a scratch that it carries from one grid point to the next.
  At the first column tile of a row tile it first stores zeros there; at every point it loads the column, adds the
  point's 1024 lane sums to it and stores it back; at the last column tile it copies the column into the output
  block. So, whatever the memory layout, the scratch ends the point holding "the update of what it held" — of zeros at
  a first tile, of what the point before left otherwise — and at a last tile the output block holds the same column.
-/
import proofs.«106658_j73426760892667_1_alg».proof.Proof.Gen.KernelIdeal.Frame
import Idealize.ShloMosaic.Lib.Pipeline.Value
import Idealize.ShloMosaic.Lib.Tactic

noncomputable section

namespace Cert.Contrast.Kernel

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl

/-- A middle column tile: the scratch held xs0, and ends holding its update by the two loaded tiles. -/
theorem scratch_B (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32)
    (harg4 : arg4.IsWhole) (arg5 : Memref sig .tc .vmem S1024x1 .f32) (harg5 : arg5.IsWhole) (hc0 : ¬cond0_0 i) (hc1 : ¬cond0_1 i)
    (x0 x1 : Vec F S1024x1024 .bf16) (xs0 : Vec F S1024x1 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S1024x1024) hz, View.ld_unit_zero (S := S1024x1) hz]

/-- The last column tile: the scratch ends holding the same update, -/
theorem scratch_C (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32)
    (harg4 : arg4.IsWhole) (arg5 : Memref sig .tc .vmem S1024x1 .f32) (harg5 : arg5.IsWhole) (hc0 : ¬cond0_0 i) (hc1 : cond0_1 i)
    (x0 x1 : Vec F S1024x1024 .bf16) (xs0 : Vec F S1024x1 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S1024x1024) hz, View.ld_unit_zero (S := S1024x1) hz]

/-- and the output block is a copy of it: the column is loaded back after its store and stored into the block. -/
theorem out_C (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32)
    (harg4 : arg4.IsWhole) (arg5 : Memref sig .tc .vmem S1024x1 .f32) (harg5 : arg5.IsWhole) (hc0 : ¬cond0_0 i) (hc1 : cond0_1 i)
    (x0 x1 : Vec F S1024x1024 .bf16) (xs0 : Vec F S1024x1 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread,
    View.ld_unit_zero (S := S1024x1024) hz, View.ld_unit_zero (S := S1024x1) hz]

/-- The first column tile: the scratch is first zeroed and the zeros are what the update loads, so it ends holding
    the update of zeros. -/
theorem scratch_A (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32)
    (harg4 : arg4.IsWhole) (arg5 : Memref sig .tc .vmem S1024x1 .f32) (harg5 : arg5.IsWhole) (hc0 : cond0_0 i) (hc1 : ¬cond0_1 i)
    (x0 x1 : Vec F S1024x1024 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread,
    View.ld_unit_zero (S := S1024x1024) hz]

end Cert.Contrast.Kernel

end
-- ==== Proof.Spec.lean ====
/-
  The contrastive loss, read over the extended reals: the two quantities every row of the stacked, normalised
  embeddings K : [8192, 1024] contributes.

  Row r of K is compared with every row c by the scalar product s(r, c) = ∑ d, K[r, d] · K[c, d]. The row's
  denominator is the sum over all c OTHER than r of exp (s(r, c) · β), with β the reciprocal of the temperature; the
  entry c = r contributes 0. The row's positive is the scalar product of row i of the first half A with row i of the
  second half B, the same number for rows i and i + 4096 of K (a product of extended reals commutes).

  β is the reciprocal of the temperature AS THE TEMPERATURE IS HELD: the single-precision number nearest 0.1 is
  13421773 / 2^27, so β = 2^27 / 13421773. Dividing an extended real by that temperature and multiplying it by β
  are one operation (Ideal.div_coe), on every extended real, the infinities included.
-/
import Idealize.ShloMosaic.PureOps.Ideal
import Idealize.ShloMosaic.Lib.ValueIdx

noncomputable section

namespace Cert.Contrast

open Idealize.ShloMosaic Idealize.ShloMosaic.ValueIdx

/-- β, the reciprocal of the temperature 13421773 / 2^27. -/
def invTau : EReal := ((134217728 / 13421773 : ℝ) : EReal)

/-- The scalar product of rows r and c of K. -/
def sim (K : (⟨2, ![8192, 1024]⟩ : Shape).Idx → EReal) (r c : Fin 8192) : EReal :=
  ∑ d : Fin 1024, K (ix2 r d) * K (ix2 c d)

/-- What column c contributes to row r's denominator: nothing on the diagonal, exp (s(r, c) · β) off it. -/
def term (K : (⟨2, ![8192, 1024]⟩ : Shape).Idx → EReal) (r c : Fin 8192) : EReal :=
  if r = c then 0 else Ideal.exp (sim K r c * invTau)

/-- Row r's denominator: the sum of its contributions over all 8192 columns. -/
def denom (K : (⟨2, ![8192, 1024]⟩ : Shape).Idx → EReal) : (⟨1, ![8192]⟩ : Shape).Idx → EReal :=
  fun i => ∑ c : Fin 8192, term K (i 0) c

/-- Row i's positive: the scalar product of row i of A with row i of B. -/
def pos (A B : (⟨2, ![4096, 1024]⟩ : Shape).Idx → EReal) : (⟨1, ![4096]⟩ : Shape).Idx → EReal :=
  fun i => ∑ d : Fin 1024, A (ix2 (i 0) d) * B (ix2 (i 0) d)

/-- The single-precision pattern of the temperature denotes 13421773 / 2^27. -/
theorem ofBits_tau : Ideal.ofBits .f32 0x3DCCCCCD#32 = ((13421773 / 134217728 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- Dividing by the temperature is multiplying by β, on every extended real. -/
theorem div_tau (x : EReal) : Ideal.div x ((13421773 / 134217728 : ℝ) : EReal) = x * invTau := by
  rw [Ideal.div_coe (by norm_num : (13421773 / 134217728 : ℝ) ≠ 0)]
  unfold invTau
  congr 2
  norm_num

end Cert.Contrast

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.BodyRow.lean ====
import proofs.«106658_j73426760892667_1_alg».proof.Proof.Gen.KernelIdeal.Skeleton
import proofs.«106658_j73426760892667_1_alg».proof.Proof.Spec
import proofs.«106658_j73426760892667_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

/-
  The kernel body's arithmetic, read at one index over the extended reals.

  One grid step (i 0, i 1) of the kernel works on a 1024 × 1024 tile: rows p of the first loaded tile x0 against
  columns q of the second loaded tile x1. It forms the products' sums m(p, q) = ∑ d, x0[p, d] · x1[d, q], scales them
  by β, exponentiates, puts 0 where the tile entry lies on the diagonal of the whole matrix (global row
  (i 0) · 1024 + p equal to global column (i 1) · 1024 + q), sums each row over its 1024 columns and adds the row sums
  to what the accumulator column held. The first stored value is the zero column the accumulator starts from.
-/

noncomputable section

namespace Cert.Contrast.Body

open Idealize.ShloMosaic Idealize.ShloMosaic.ValueIdx Cert.KernelIdeal Cert.KernelIdeal.Gen

/-! ## The scale -/

/-- The scale the kernel multiplies by is β: the named constant's value in the certificate's table. -/
theorem named_invTau :
    Named.named (F := Ideal) Cert.KernelIdeal.κ "inv_tau" (φ := .f32) 0x41200000#32 = Cert.Contrast.invTau :=
  IdealRules.named_const.ideal_named_scalar _ _ _ _ rfl

/-! ## The mask -/

/-- A global coordinate, tile number a < 8 times 1024 plus offset p < 1024, computed in 32-bit words, does not wrap:
    the word's value is the natural number a · 1024 + p. -/
theorem plane_toNat (a p : ℕ) (ha : a < 8) (hp : p < 1024) :
    (IntOp.addi (Scalar.muli (BitVec.ofNat 32 a) 1024#32) (BitVec.ofNat 32 p)).toNat = a * 1024 + p := by
  show (BitVec.ofNat 32 a * 1024#32 + BitVec.ofNat 32 p).toNat = a * 1024 + p
  rw [BitVec.toNat_add, BitVec.toNat_mul, BitVec.toNat_ofNat, BitVec.toNat_ofNat, BitVec.toNat_ofNat]
  have h1 : a % 2 ^ 32 = a := Nat.mod_eq_of_lt (by omega)
  have h2 : p % 2 ^ 32 = p := Nat.mod_eq_of_lt (by omega)
  have h3 : 1024 % 2 ^ 32 = 1024 := by norm_num
  rw [h1, h2, h3]
  have h4 : a * 1024 % 2 ^ 32 = a * 1024 := Nat.mod_eq_of_lt (by omega)
  rw [h4]
  exact Nat.mod_eq_of_lt (by omega)

/-- The comparison of two such global coordinates gives the bit 1 exactly when the natural numbers are equal. -/
theorem mask_bit (a b p q : ℕ) (ha : a < 8) (hb : b < 8) (hp : p < 1024) (hq : q < 1024) :
    IntOp.cmpi .eq (IntOp.addi (Scalar.muli (BitVec.ofNat 32 a) 1024#32) (BitVec.ofNat 32 p))
        (IntOp.addi (Scalar.muli (BitVec.ofNat 32 b) 1024#32) (BitVec.ofNat 32 q))
      = if a * 1024 + p = b * 1024 + q then 1#1 else 0#1 := by
  have e1 := plane_toNat a p ha hp
  have e2 := plane_toNat b q hb hq
  show BitVec.ofBool (_ == _) = _
  by_cases h : a * 1024 + p = b * 1024 + q
  · rw [if_pos h]
    have : IntOp.addi (Scalar.muli (BitVec.ofNat 32 a) 1024#32) (BitVec.ofNat 32 p)
        = IntOp.addi (Scalar.muli (BitVec.ofNat 32 b) 1024#32) (BitVec.ofNat 32 q) :=
      BitVec.eq_of_toNat_eq (by rw [e1, e2, h])
    rw [this, beq_self_eq_true]; rfl
  · rw [if_neg h]
    have : ¬ IntOp.addi (Scalar.muli (BitVec.ofNat 32 a) 1024#32) (BitVec.ofNat 32 p)
        = IntOp.addi (Scalar.muli (BitVec.ofNat 32 b) 1024#32) (BitVec.ofNat 32 q) := fun hc => h (by rw [← e1, ← e2, hc])
    rw [beq_eq_false_iff_ne.mpr this]; rfl

/-- The row-number plane at (p, q) is the word of p. -/
theorem iota_rows_apply (p q : Fin 1024) :
    iota .tc S1024x1024 32 [0] iota_S1024x1024_d0_w32 (ix2 p q) = BitVec.ofNat 32 p.val := by
  show BitVec.ofNat 32 (0 * 1024 + p.val) = BitVec.ofNat 32 p.val
  rw [Nat.zero_mul, Nat.zero_add]

/-- The column-number plane at (p, q) is the word of q. -/
theorem iota_cols_apply (p q : Fin 1024) :
    iota .tc S1024x1024 32 [1] iota_S1024x1024_d1_w32 (ix2 p q) = BitVec.ofNat 32 q.val := by
  show BitVec.ofNat 32 (0 * 1024 + q.val) = BitVec.ofNat 32 q.val
  rw [Nat.zero_mul, Nat.zero_add]

/-! ## The tile product -/

/-- The tile product into a zero accumulator at (p, q): the sum over d of x0[p, d] · x1[d, q]. -/
theorem tile_matmul_apply (x0 x1 : FVec Ideal S1024x1024 .bf16) (p q : Fin 1024) :
    matmul (F := Ideal) dot_S1024x1024_S1024x1024_S1024x1024_1_0_0_1_n_n none x0 x1
        (constant (F := Ideal) S1024x1024 .f32 0x00000000#32) (ix2 p q)
      = ∑ d : Fin 1024, x0 (ix2 p d) * x1 (ix2 d q) := by
  refine (Ideal.matmul_constant_zero_apply dot_S1024x1024_S1024x1024_S1024x1024_1_0_0_1_n_n none x0 x1 (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q)
      ((ValueIdx.contrEquiv1 dot_S1024x1024_S1024x1024_S1024x1024_1_0_0_1_n_n 1024 rfl rfl).symm k) = ix2 p k :=
    funext fun a => Fin.ext (by
      match a with
      | ⟨0, _⟩ =>
        show (dot_S1024x1024_S1024x1024_S1024x1024_1_0_0_1_n_n.lhsIdx (ix2 p q) _ 0).val = p.val
        unfold DotDims.lhsIdx
        rw [dif_neg (show ¬(0 : Fin S1024x1024.rank) ∈ dot_S1024x1024_S1024x1024_S1024x1024_1_0_0_1_n_n.lhsBatch by decide),
          dif_pos (show (0 : Fin S1024x1024.rank) ∈ dot_S1024x1024_S1024x1024_S1024x1024_1_0_0_1_n_n.lhsNonContracting by decide)]
        rfl
      | ⟨1, _⟩ =>
        exact (dot_S1024x1024_S1024x1024_S1024x1024_1_0_0_1_n_n.lhsIdx_val_of_single rfl (ix2 p q) _).trans hk)
  have er : dot_S1024x1024_S1024x1024_S1024x1024_1_0_0_1_n_n.rhsIdx (ix2 p q)
      ((ValueIdx.contrEquiv1 dot_S1024x1024_S1024x1024_S1024x1024_1_0_0_1_n_n 1024 rfl rfl).symm k) = ix2 k q :=
    funext fun a => Fin.ext (by
      match a with
      | ⟨0, _⟩ =>
        exact (dot_S1024x1024_S1024x1024_S1024x1024_1_0_0_1_n_n.rhsIdx_val_of_single rfl (ix2 p q) _).trans hk
      | ⟨1, _⟩ =>
        show (dot_S1024x1024_S1024x1024_S1024x1024_1_0_0_1_n_n.rhsIdx (ix2 p q) _ 1).val = q.val
        unfold DotDims.rhsIdx
        rw [dif_neg (show ¬(1 : Fin S1024x1024.rank) ∈ dot_S1024x1024_S1024x1024_S1024x1024_1_0_0_1_n_n.rhsBatch by decide),
          dif_pos (show (1 : Fin S1024x1024.rank) ∈ dot_S1024x1024_S1024x1024_S1024x1024_1_0_0_1_n_n.rhsNonContracting by decide)]
        rfl)
  rw [el, er]

/-! ## The row sum -/

/-- The sum along the second axis of a 1024 × 1024 array, from the accumulator +0.0, at row p: the sum over the
    columns q of the array at (p, q). -/
theorem row_sum_apply (src : FVec Ideal S1024x1024 .f32) (hφ : FKind.Formats .f32)
    (hacc : (0x00000000#32 : BitVec 32) = 0x00000000#32) (p : Fin 1024) :
    multiReduction (F := Ideal) .add [1] S1024 src 0x00000000#32 reduces_S1024x1024_S1024 hφ hacc (ix1 p)
      = ∑ q : Fin 1024, src (ix2 p q) := by
  refine (Ideal.multiReduction_add_single src 0x00000000#32 reduces_S1024x1024_S1024 hφ hacc (ix1 p)).trans ?_
  refine Finset.sum_congr rfl fun q _ => congrArg src ?_
  funext c; apply Fin.ext
  match c with
  | ⟨0, _⟩ => rfl
  | ⟨1, _⟩ => rfl

/-! ## The two stored values -/

/-- The first stored value is zero everywhere. -/
theorem pay1_apply (y : S1024x1.Idx) : k0_pay1 (F := Ideal) y = 0 := by
  unfold k0_pay1
  refine (congrFun (shapeCast_self _ _) y).trans ?_
  exact Cert.Contrast.ofBits_zero

/-- One entry of the masked, scaled, exponentiated tile. -/
theorem masked_exp_apply (i : grid0.Coords) (x0 x1 : FVec Ideal S1024x1024 .bf16) (p q : Fin 1024) :
    select
        (cmpi .eq
          (addi (broadcast S1024x1024 (Scalar.muli (BitVec.ofNat 32 (i 0).val) 1024#32)) (iota .tc S1024x1024 32 [0] iota_S1024x1024_d0_w32))
          (addi (broadcast S1024x1024 (Scalar.muli (BitVec.ofNat 32 (i 1).val) 1024#32)) (iota .tc S1024x1024 32 [1] iota_S1024x1024_d1_w32)))
        (broadcast S1024x1024 (Scalar.ofBits (F := Ideal) .f32 0x00000000#32))
        (exp (mulf
          (matmul (F := Ideal) dot_S1024x1024_S1024x1024_S1024x1024_1_0_0_1_n_n none x0 x1 (constant (F := Ideal) S1024x1024 .f32 0x00000000#32))
          (broadcast S1024x1024 (Named.named (F := Ideal) Cert.KernelIdeal.κ "inv_tau" (φ := .f32) 0x41200000#32))))
        (ix2 p q)
      = if (i 0).val * 1024 + p.val = (i 1).val * 1024 + q.val then (0 : EReal)
          else Ideal.exp ((∑ d : Fin 1024, x0 (ix2 p d) * x1 (ix2 d q)) * Cert.Contrast.invTau) := by
  have h0 : (i 0).val < 8 := (i 0).isLt
  have h1 : (i 1).val < 8 := (i 1).isLt
  have hm := mask_bit (i 0).val (i 1).val p.val q.val h0 h1 p.isLt q.isLt
  refine (select_apply _ _ _ _).trans ?_
  have hc : cmpi .eq
          (addi (broadcast S1024x1024 (Scalar.muli (BitVec.ofNat 32 (i 0).val) 1024#32)) (iota .tc S1024x1024 32 [0] iota_S1024x1024_d0_w32))
          (addi (broadcast S1024x1024 (Scalar.muli (BitVec.ofNat 32 (i 1).val) 1024#32)) (iota .tc S1024x1024 32 [1] iota_S1024x1024_d1_w32))
          (ix2 p q) = if (i 0).val * 1024 + p.val = (i 1).val * 1024 + q.val then 1#1 else 0#1 := by
    show IntOp.cmpi .eq (IntOp.addi _ (iota .tc S1024x1024 32 [0] iota_S1024x1024_d0_w32 (ix2 p q)))
      (IntOp.addi _ (iota .tc S1024x1024 32 [1] iota_S1024x1024_d1_w32 (ix2 p q))) = _
    rw [iota_rows_apply, iota_cols_apply]
    exact hm
  rw [hc]
  have hv : exp (mulf
          (matmul (F := Ideal) dot_S1024x1024_S1024x1024_S1024x1024_1_0_0_1_n_n none x0 x1 (constant (F := Ideal) S1024x1024 .f32 0x00000000#32))
          (broadcast S1024x1024 (Named.named (F := Ideal) Cert.KernelIdeal.κ "inv_tau" (φ := .f32) 0x41200000#32))) (ix2 p q)
        = Ideal.exp ((∑ d : Fin 1024, x0 (ix2 p d) * x1 (ix2 d q)) * Cert.Contrast.invTau) := by
    show Ideal.exp (matmul (F := Ideal) dot_S1024x1024_S1024x1024_S1024x1024_1_0_0_1_n_n none x0 x1 (constant (F := Ideal) S1024x1024 .f32 0x00000000#32) (ix2 p q)
      * Named.named (F := Ideal) Cert.KernelIdeal.κ "inv_tau" (φ := .f32) 0x41200000#32) = _
    rw [tile_matmul_apply, named_invTau]
  rw [hv]
  by_cases h : (i 0).val * 1024 + p.val = (i 1).val * 1024 + q.val
  · rw [if_pos h, if_pos h, select_one]; exact Cert.Contrast.ofBits_zero
  · rw [if_neg h, if_neg h, select_zero]

/-- The second stored value at row p: what was loaded from the accumulator at row p, plus the sum over the tile's
    1024 columns q of the masked exponential — 0 where global row (i 0)·1024 + p equals global column (i 1)·1024 + q,
    exp ((∑ d, x0[p,d] · x1[d,q]) · β) elsewhere. -/
theorem pay2_apply (i : grid0.Coords) (x0 x1 : FVec Ideal S1024x1024 .bf16) (acc : FVec Ideal S1024x1 .f32) (p : Fin 1024) :
    k0_pay2 (F := Ideal) i x0 x1 acc (ix2 p (0 : Fin 1))
      = acc (ix2 p (0 : Fin 1))
        + ∑ q : Fin 1024, (if (i 0).val * 1024 + p.val = (i 1).val * 1024 + q.val then (0 : EReal)
            else Ideal.exp ((∑ d : Fin 1024, x0 (ix2 p d) * x1 (ix2 d q)) * Cert.Contrast.invTau)) := by
  unfold k0_pay2
  refine (congrFun (shapeCast_self _ _) _).trans ?_
  refine (addf_apply _ _ _).trans ?_
  refine congrArg (acc (ix2 p (0 : Fin 1)) + ·) ?_
  refine (Cert.ColumnForms.shapeCast_a_a1_apply _ _ p (0 : Fin 1)).trans ?_
  refine (row_sum_apply _ _ _ p).trans ?_
  refine Finset.sum_congr rfl fun q _ => ?_
  rw [shapeCast_self, shapeCast_self]
  exact masked_exp_apply i x0 x1 p q

end Cert.Contrast.Body

end
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.Accumulate.lean ====
/-
  A row's denominator accumulated column tile by column tile.

  The 8192 columns are cut into 8 tiles of 1024: column q of tile b is the global column b · 1024 + q (and row p of
  row tile a the global row a · 1024 + p: the same numbering). The running total of row r after its first n tiles is
  the sum of those tiles' contributions; it starts at 0, each tile adds its own 1024 contributions, and after the
  eighth tile it is the whole denominator — addition of extended reals is commutative and associative, infinities
  included, so regrouping the 8192 terms by tile changes nothing and no finiteness is asked.

  One tile's contribution as the tile computes it — 0 where the global row and the global column coincide, else the
  exponential of the tile's scalar product times β — is the specification's contribution of that column, when the
  tile's two operands are the matching rows of K.
-/
import proofs.«106658_j73426760892667_1_alg».proof.Proof.Spec
import proofs.«106658_j73426760892667_1_alg».proof.Proof.LibBlockSum

noncomputable section

namespace Cert.Contrast

open Idealize.ShloMosaic Idealize.ShloMosaic.ValueIdx Finset

/-- Position q of tile b as a global index below 8192 (wrapped, so that it is defined for every natural b). -/
def col (b : ℕ) (q : Fin 1024) : Fin 8192 := ⟨(b * 1024 + q.val) % 8192, Nat.mod_lt _ (by norm_num)⟩

/-- Below 8 tiles nothing wraps. -/
theorem col_val {b : ℕ} (hb : b < 8) (q : Fin 1024) : (col b q).val = b * 1024 + q.val := by
  have hq := q.isLt
  show (b * 1024 + q.val) % 8192 = _
  exact Nat.mod_eq_of_lt (by omega)

/-- Row r's running total after its first n column tiles. -/
def rowPart (K : (⟨2, ![8192, 1024]⟩ : Shape).Idx → EReal) (r : Fin 8192) (n : ℕ) : EReal :=
  ∑ b ∈ range n, ∑ q : Fin 1024, term K r (col b q)

theorem rowPart_zero (K : (⟨2, ![8192, 1024]⟩ : Shape).Idx → EReal) (r : Fin 8192) : rowPart K r 0 = 0 :=
  Finset.sum_range_zero _

/-- One more tile adds that tile's 1024 contributions. -/
theorem rowPart_succ (K : (⟨2, ![8192, 1024]⟩ : Shape).Idx → EReal) (r : Fin 8192) (n : ℕ) :
    rowPart K r (n + 1) = rowPart K r n + ∑ q : Fin 1024, term K r (col n q) :=
  Finset.sum_range_succ _ _

/-- After the eighth tile the running total is the row's denominator. -/
theorem rowPart_all (K : (⟨2, ![8192, 1024]⟩ : Shape).Idx → EReal) (r : Fin 8192) :
    rowPart K r 8 = denom K (ix1 r) := by
  unfold rowPart denom
  exact BlockSum.sum_range_blocks 8 1024 (by norm_num) (fun k : Fin (8 * 1024) => term K r k)

/-- One tile entry as the tile computes it is the specification's contribution: the tile's left operand holds row
    a · 1024 + p of K and its right operand, read down column q, row j · 1024 + q of K. -/
theorem tile_term (K : (⟨2, ![8192, 1024]⟩ : Shape).Idx → EReal) {a j : ℕ} (ha : a < 8) (hj : j < 8) (p q : Fin 1024)
    (l r : Fin 1024 → EReal) (hl : ∀ d, l d = K (ix2 (col a p) d)) (hr : ∀ d, r d = K (ix2 (col j q) d)) :
    (if a * 1024 + p.val = j * 1024 + q.val then (0 : EReal) else Ideal.exp ((∑ d : Fin 1024, l d * r d) * invTau))
      = term K (col a p) (col j q) := by
  unfold term sim
  have hiff : (col a p = col j q) ↔ a * 1024 + p.val = j * 1024 + q.val := by
    rw [Fin.ext_iff, col_val ha, col_val hj]
  by_cases h : a * 1024 + p.val = j * 1024 + q.val
  · rw [if_pos h, if_pos (hiff.mpr h)]
  · rw [if_neg h, if_neg (fun e => h (hiff.mp e))]
    congr 2
    exact Finset.sum_congr rfl fun d _ => by rw [hl, hr]

end Cert.Contrast

end
-- ==== Proof.Blocks.lean ====
/-
  Where a grid point's tiles sit in the arrays they are cut from.

  The 64 grid points are numbered row tile first: point t works on row tile t / 8 and column tile t % 8. Its first
  operand is rows (t / 8) · 1024 + p of the [8192, 1024] stack, all 1024 columns; its second operand is columns
  (t % 8) · 1024 + q of the [1024, 8192] transposed stack, all 1024 rows; and the block it may write back is rows
  (t / 8) · 1024 + p of the [8192, 1] result. A block's element sits at block index × block size + its own coordinate.
-/
import proofs.«106658_j73426760892667_1_alg».proof.Proof.Gen.KernelIdeal.Frame
import proofs.«106658_j73426760892667_1_alg».proof.Proof.Accumulate
import Idealize.ShloMosaic.Lib.Pipeline.Value

noncomputable section

namespace Cert.Contrast.Kernel

open Idealize.ShloMosaic Idealize.ShloMosaic.TcCoe Idealize.ShloMosaic.ValueIdx Idealize.SL.Sem
open Cert.KernelIdeal Cert.KernelIdeal.Gen

variable {F : FTy → Type} [FloatOps F] [Named F]
variable (m : (ℓ : Loc nD τ sig) → Buf (Elt F) ℓ)

/-- Point t is row tile t / 8, column tile t % 8. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The row tile's block index: (t / 8, 0). -/
theorem index_rows : ∀ t : Fin cfg0.N, win0_0.index t 0 = t.val / 8 ∧ win0_0.index t 1 = 0 :=
  (by decide +kernel : ∀ t : Fin grid0.N, win0_0.index t 0 = t.val / 8 ∧ win0_0.index t 1 = 0)

/-- The column tile's block index: (0, t % 8). -/
theorem index_cols : ∀ t : Fin cfg0.N, win0_1.index t 0 = 0 ∧ win0_1.index t 1 = t.val % 8 :=
  (by decide +kernel : ∀ t : Fin grid0.N, win0_1.index t 0 = 0 ∧ win0_1.index t 1 = t.val % 8)

/-- The output block's index: (t / 8, 0). -/
theorem index_out : ∀ t : Fin cfg0.N, win0_2.index t 0 = t.val / 8 ∧ win0_2.index t 1 = 0 :=
  (by decide +kernel : ∀ t : Fin grid0.N, win0_2.index t 0 = t.val / 8 ∧ win0_2.index t 1 = 0)

theorem tile_lt (t : Fin cfg0.N) : t.val / 8 < 8 ∧ t.val % 8 < 8 := by
  have hN : cfg0.N = 64 := N_0
  have := t.isLt
  omega

/-- The first operand at (p, d) is the stack at row (t / 8) · 1024 + p, column d. -/
theorem rowTile_apply (c : Dev nD) (t : Fin cfg0.N) (p d : Fin 1024) :
    (iblk m c 0 t : Vec F S1024x1024 .bf16) (ix2 p d) = V m c main_v7 (ix2 (col (t.val / 8) p) d) := by
  unfold iblk
  rw [View.read_apply]
  show V m c main_v7 _ = V m c main_v7 _
  refine congrArg (V m c main_v7) ?_
  funext a
  apply Fin.ext
  match a with
  | ⟨0, _⟩ =>
    show win0_0.index t 0 * 1024 + 1 * p.val = (col (t.val / 8) p).val
    rw [(index_rows t).1, col_val (tile_lt t).1]; omega
  | ⟨1, _⟩ =>
    show win0_0.index t 1 * 1024 + 1 * d.val = d.val
    rw [(index_rows t).2]; omega

/-- The second operand at (d, q) is the transposed stack at row d, column (t % 8) · 1024 + q. -/
theorem colTile_apply (c : Dev nD) (t : Fin cfg0.N) (d q : Fin 1024) :
    (iblk m c 1 t : Vec F S1024x1024 .bf16) (ix2 d q) = V m c main_v8 (ix2 d (col (t.val % 8) q)) := by
  unfold iblk
  rw [View.read_apply]
  show V m c main_v8 _ = V m c main_v8 _
  refine congrArg (V m c main_v8) ?_
  funext a
  apply Fin.ext
  match a with
  | ⟨0, _⟩ =>
    show win0_1.index t 0 * 1024 + 1 * d.val = d.val
    rw [(index_cols t).1]; omega
  | ⟨1, _⟩ =>
    show win0_1.index t 1 * 1024 + 1 * q.val = (col (t.val % 8) q).val
    rw [(index_cols t).2, col_val (tile_lt t).2]; omega

end Cert.Contrast.Kernel

end
-- ==== Proof.HostPrefix.lean ====
/-
  What the kernel's program has computed when its grid starts.

  Before the grid the program normalises the rows of its two arguments, stacks the two halves, changes the stack's
  float format and transposes it. These are, operation for operation, the reference's own first lines, so each array
  the grid and the later lines read is the reference's corresponding stage of the same two arguments: the two halves
  A and B, the stack K (a change of float format is the identity over the extended reals, so the converted stack is
  K entry by entry), and the transposed stack.
-/
import proofs.«106658_j73426760892667_1_alg».proof.Proof.Gen.KernelIdeal.Frame
import proofs.«106658_j73426760892667_1_alg».proof.Proof.Gen.ReferenceIdeal.Read
import Idealize.ShloMosaic.Lib.StableHlo.Run

noncomputable section

namespace Cert.Contrast.Kernel

open Idealize.ShloMosaic Idealize.ShloMosaic.TcCoe Idealize.SL.Sem
open Cert.KernelIdeal Cert.KernelIdeal.Gen

variable (m : (ℓ : Loc nD τ sig) → Buf (Elt Ideal) ℓ)

/-- The first half, normalised, is the reference's first half of the first argument. -/
theorem entry_first (c : Dev nD) :
    V m c main_v2 = Cert.ReferenceIdeal.Read.val_main_v2 (F := Ideal) (m ((c.tc : Thread nD τ).loc main_arg0)) := by
  dsimp only [V, V0]
  simp only [hostOps0, hostOps0_1, hostOps0_2, hostOps0_3, List.flatten_cons, List.flatten_nil, List.append_nil,
    List.cons_append, List.nil_append]
  after_results
  rfl

/-- The second half, normalised, is the reference's second half of the second argument. -/
theorem entry_second (c : Dev nD) :
    V m c main_v5 = Cert.ReferenceIdeal.Read.val_main_v5 (F := Ideal) (m ((c.tc : Thread nD τ).loc main_arg1)) := by
  dsimp only [V, V0]
  simp only [hostOps0, hostOps0_1, hostOps0_2, hostOps0_3, List.flatten_cons, List.flatten_nil, List.append_nil,
    List.cons_append, List.nil_append]
  after_results
  rfl

/-- The array the row tiles are cut from is the reference's stack with its float format changed. -/
theorem entry_stack_eq (c : Dev nD) :
    V m c main_v7 = truncf (F := Ideal) (s := S8192x1024) (φ := .f32) .bf16
      (Cert.ReferenceIdeal.Read.val_main_v6 (F := Ideal) (m ((c.tc : Thread nD τ).loc main_arg0))
        (m ((c.tc : Thread nD τ).loc main_arg1))) bitsLt_bf16_f32 := by
  dsimp only [V, V0]
  simp only [hostOps0, hostOps0_1, hostOps0_2, hostOps0_3, List.flatten_cons, List.flatten_nil, List.append_nil,
    List.cons_append, List.nil_append]
  after_results
  rfl

/-- So it is the reference's stack, entry by entry: over the extended reals a change of float format is the identity. -/
theorem entry_stack (c : Dev nD) (j : S8192x1024.Idx) :
    V m c main_v7 j = Cert.ReferenceIdeal.Read.val_main_v6 (F := Ideal) (m ((c.tc : Thread nD τ).loc main_arg0))
      (m ((c.tc : Thread nD τ).loc main_arg1)) j := by
  rw [entry_stack_eq]
  rfl

/-- The array the column tiles are cut from is the transpose of the array the row tiles are cut from. -/
theorem entry_transposed (c : Dev nD) :
    V m c main_v8 = transpose S1024x8192 [1, 0] (V m c main_v7) transposes_S8192x1024_S1024x8192_1_0 := by
  rw [entry_stack_eq]
  dsimp only [V, V0]
  simp only [hostOps0, hostOps0_1, hostOps0_2, hostOps0_3, List.flatten_cons, List.flatten_nil, List.append_nil,
    List.cons_append, List.nil_append]
  after_results
  rfl

end Cert.Contrast.Kernel

end
-- ==== Proof.Invariant.lean ====
/-
  What the carried column of running totals holds after every grid point.

  Let K be the stack the row tiles are cut from. Grid point t is row tile t / 8 and column tile t % 8. By induction on
  t: after point t the carried column holds, at row p, the running total of global row (t / 8) · 1024 + p over its first
  t % 8 + 1 column tiles. At a first column tile the column is zeroed and this tile's 1024 contributions are added to
  zero; otherwise the point before is the same row tile's previous column tile, and this tile's contributions are
  added to what it left. At a last column tile (t % 8 = 7) the total is over all 8 tiles, which is the row's whole
  denominator, and the output block holds a copy of the column.
-/
import proofs.«106658_j73426760892667_1_alg».proof.Proof.Pieces
import proofs.«106658_j73426760892667_1_alg».proof.Proof.BodyRow
import proofs.«106658_j73426760892667_1_alg».proof.Proof.Blocks
import proofs.«106658_j73426760892667_1_alg».proof.Proof.HostPrefix
import proofs.«106658_j73426760892667_1_alg».proof.Proof.Accumulate

noncomputable section

namespace Cert.Contrast.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The stack the row tiles are cut from, as an array of extended reals. -/
abbrev stack (c : Dev nD) : (⟨2, ![8192, 1024]⟩ : Shape).Idx → EReal := V m c main_v7

/-- One point's update of the column, over any operands that hold the matching rows of K: row p gains the 1024
    contributions of column tile j to global row a · 1024 + p. -/
theorem update_apply (K : (⟨2, ![8192, 1024]⟩ : Shape).Idx → EReal) (i : grid0.Coords) {a j : ℕ} (ha : a < 8) (hj : j < 8)
    (hi0 : (i 0).val = a) (hi1 : (i 1).val = j) (x0 x1 : FVec Ideal S1024x1024 .bf16)
    (hx0 : ∀ p d : Fin 1024, x0 (ix2 p d) = K (ix2 (col a p) d))
    (hx1 : ∀ d q : Fin 1024, x1 (ix2 d q) = K (ix2 (col j q) d))
    (acc : FVec Ideal S1024x1 .f32) (p : Fin 1024) :
    k0_pay2 (F := Ideal) i x0 x1 acc (ix2 p (0 : Fin 1))
      = acc (ix2 p (0 : Fin 1)) + ∑ q : Fin 1024, term K (col a p) (col j q) := by
  rw [Cert.Contrast.Body.pay2_apply, hi0, hi1]
  refine congrArg (acc (ix2 p (0 : Fin 1)) + ·) (Finset.sum_congr rfl fun q _ => ?_)
  exact tile_term K ha hj p q _ _ (fun d => hx0 p d) (fun d => hx1 d q)

/-- The point's second operand holds the matching rows of K: it is cut from K's transpose. -/
theorem colTile_stack (c : Dev nD) (t : Fin cfg0.N) (d q : Fin 1024) :
    (iblk m c 1 t : Vec Ideal S1024x1024 .bf16) (ix2 d q) = stack m c (ix2 (col (t.val % 8) q) d) := by
  rw [colTile_apply m c t d q, entry_transposed m c]
  exact transpose_apply [1, 0] (V m c main_v7) transposes_S8192x1024_S1024x8192_1_0 (ix2 d (col (t.val % 8) q))
    (ix2 (col (t.val % 8) q) d) (fun b => match b with
      | ⟨0, _⟩ => rfl
      | ⟨1, _⟩ => rfl)

/-- The update at grid point t, of any column. -/
theorem point_update (c : Dev nD) (t : Fin cfg0.N) (acc : FVec Ideal S1024x1 .f32) (p : Fin 1024) :
    k0_pay2 (F := Ideal) (grid0.coords t) (iblk m c 0 t) (iblk m c 1 t) acc (ix2 p (0 : Fin 1))
      = acc (ix2 p (0 : Fin 1)) + ∑ q : Fin 1024, term (stack m c) (col (t.val / 8) p) (col (t.val % 8) q) :=
  update_apply (stack m c) (grid0.coords t) (tile_lt t).1 (tile_lt t).2 (coords_val t).1 (coords_val t).2
    (iblk m c 0 t) (iblk m c 1 t) (fun p d => rowTile_apply m c t p d) (fun d q => colTile_stack m c t d q) acc p

/-- THE RUNNING TOTALS: after point n the carried column holds, at row p, the total of global row (n / 8) · 1024 + p
    over its first n % 8 + 1 column tiles. -/
theorem scratch_eq (c : Dev nD) : ∀ (n : ℕ) (h : n < cfg0.N) (p : Fin 1024),
    (outsAt0 m c n h).2 (ix2 p (0 : Fin 1)) = rowPart (stack m c) (col (n / 8) p) (n % 8 + 1) := by
  intro n
  induction n with
  | zero =>
    intro h p
    have e := outsAt0_A m c ⟨0, h⟩ (Nat.zero_mod _) (by show ¬((0 : ℕ) % 8 = 7); decide)
    rw [show outsAt0 m c 0 h = _ from e]
    dsimp only
    rw [scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)]
    rw [point_update m c ⟨0, h⟩ _ p, Cert.Contrast.Body.pay1_apply, zero_add]
    show _ = rowPart (stack m c) (col (0 / 8) p) (0 + 1)
    rw [rowPart_succ, rowPart_zero, zero_add]
    rfl
  | succ n ih =>
    intro h p
    have hN : cfg0.N = 64 := N_0
    by_cases h0 : (n + 1) % 8 = 0
    · have h1 : ¬(n + 1) % 8 = 7 := by omega
      have e := outsAt0_A m c ⟨n + 1, h⟩ h0 h1
      rw [show outsAt0 m c (n + 1) h = _ from e]
      dsimp only
      rw [scratch_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)]
      rw [point_update m c ⟨n + 1, h⟩ _ p, Cert.Contrast.Body.pay1_apply, zero_add]
      show _ = rowPart (stack m c) (col ((n + 1) / 8) p) ((n + 1) % 8 + 1)
      rw [rowPart_succ, h0, rowPart_zero, zero_add]
    · have hprev : n < cfg0.N := Nat.lt_of_succ_lt h
      have ihp : (outsAt0 m c (n + 1 - 1) (Nat.lt_of_le_of_lt (Nat.sub_le _ _) h)).2 (ix2 p (0 : Fin 1))
          = rowPart (stack m c) (col ((n + 1) / 8) p) ((n + 1) % 8) := by
        have e1 : (n + 1) / 8 = n / 8 := by omega
        have e2 : (n + 1) % 8 = n % 8 + 1 := by omega
        rw [e1, e2]
        exact ih hprev p
      by_cases h1 : (n + 1) % 8 = 7
      · have e := outsAt0_C m c ⟨n + 1, h⟩ h0 h1
        rw [show outsAt0 m c (n + 1) h = _ from e]
        dsimp only
        rw [scratch_C c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _]
        rw [point_update m c ⟨n + 1, h⟩ _ p]
        show _ + _ = rowPart (stack m c) (col ((n + 1) / 8) p) ((n + 1) % 8 + 1)
        rw [rowPart_succ]
        exact congrArg (· + _) ihp
      · have e := outsAt0_B m c ⟨n + 1, h⟩ h0 h1
        rw [show outsAt0 m c (n + 1) h = _ from e]
        dsimp only
        rw [scratch_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (iblk m c 0 ⟨n + 1, h⟩) (iblk m c 1 ⟨n + 1, h⟩) _]
        rw [point_update m c ⟨n + 1, h⟩ _ p]
        show _ + _ = rowPart (stack m c) (col ((n + 1) / 8) p) ((n + 1) % 8 + 1)
        rw [rowPart_succ]
        exact congrArg (· + _) ihp

/-- At a last column tile the output block is a copy of the carried column, -/
theorem out_eq_scratch (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  rw [out_C c (grid0.coords t) (ms0_0 t) (hs0_0 t) (ms0_1 t) (hs0_1 t) (ms0_2 t) (hs0_2 t) scM0_0 (Memref.isWhole_whole _) _ _
      (iblk m c 0 t) (iblk m c 1 t) _,
    scratch_C c (grid0.coords t) (ms0_0 t) (hs0_0 t) (ms0_1 t) (hs0_1 t) (ms0_2 t) (hs0_2 t) scM0_0 (Memref.isWhole_whole _) _ _
      (iblk m c 0 t) (iblk m c 1 t) _]

/-- so it holds, at row p, the whole denominator of global row (t / 8) · 1024 + p. -/
theorem out_eq_denom (c : Dev nD) (t : Fin cfg0.N) (h1 : t.val % 8 = 7) (p : Fin 1024) :
    (outsAt0 m c t.val t.isLt).1 (ix2 p (0 : Fin 1)) = denom (stack m c) (ix1 (col (t.val / 8) p)) := by
  rw [out_eq_scratch m c t (by omega) h1, scratch_eq m c t.val t.isLt p, h1]
  exact rowPart_all (stack m c) (col (t.val / 8) p)

end Cert.Contrast.Kernel

end
-- ==== Proof.Final.lean ====
/-
  What the grid leaves in its [8192, 1] result array.

  The result array is written back once per row tile, at the row tile's last column tile (points t with t % 8 = 7),
  and the block written there is rows (t / 8) · 1024 + p of the array. What is written at row p is the whole
  denominator of global row (t / 8) · 1024 + p. Every row r of the array lies in exactly the block written at point
  8 · (r / 1024) + 7, so after the grid the array holds, at every row r, the denominator of row r of the stack.
-/
import proofs.«106658_j73426760892667_1_alg».proof.Proof.Invariant

noncomputable section

namespace Cert.Contrast.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The result array: row r holds the denominator of row r of the stack. -/
def outG (c : Dev nD) : Buf (Elt Ideal) ((c.tc : Thread nD τ).loc main_v9) :=
  fun i => denom (stack m c) (ix1 (⟨(i 0).val, (i 0).isLt⟩ : Fin 8192))

/-- WHAT A WRITE-BACK WRITES: at a last column tile, the matching block of the result array. -/
theorem flushed_eq (c : Dev nD) (t : Fin cfg0.N) (hf : (cfg0.win 2).flush t = true) :
    (dats m 0 c).flushed 2 t = ((cfg0.win 2).blk t).view.read (Elt Ideal) (outG m c) := by
  have h7 : t.val % 8 = 7 := (flush0_2 t).mp hf
  show (cfg0.win 2).cut (grid0.coords t) ((dats m 0 c).after 2 t) = _
  rw [after0_2]
  funext y
  obtain ⟨p, u, rfl⟩ : ∃ (p : Fin 1024) (u : Fin 1), y = ix2 p u := ⟨y 0, y 1, eq_ix2 y⟩
  obtain rfl : u = 0 := Subsingleton.elim _ _
  show (outsAt0 m c t.val t.isLt).1 (ix2 p (0 : Fin 1)) = outG m c (((cfg0.win 2).blk t).view.emb (ix2 p (0 : Fin 1)))
  rw [out_eq_denom m c t h7 p]
  unfold outG
  refine congrArg (denom (stack m c)) (congrArg ix1 (Fin.ext ?_))
  show (col (t.val / 8) p).val = win0_2.index t 0 * 1024 + 1 * p.val
  rw [(index_out t).1, col_val (tile_lt t).1]; omega

/-- An index of the result array is in point t's block iff each coordinate is in the block's range on its axis. -/
theorem mem_blk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v9).slice (win0_2.rect t)).set ↔ _
  rw [View.set_slice_whole, Rect.mem_set_unit]
  exact Iff.rfl

/-- Every row of the result array is in the block written back at its row tile's last column tile. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  obtain ⟨t, ht⟩ : ∃ t : Fin cfg0.N, t.val = 8 * ((i 0).val / 1024) + 7 := ⟨⟨8 * ((i 0).val / 1024) + 7, by omega⟩, rfl⟩
  refine ⟨t, (flush0_2 t).mpr (by omega), ?_⟩
  rw [mem_blk]
  have e0 : win0_2.index t 0 = t.val / 8 := (index_out t).1
  have e1 : win0_2.index t 1 = 0 := (index_out t).2
  intro a
  match a with
  | ⟨0, _⟩ =>
    show win0_2.index t 0 * 1024 ≤ (i 0).val ∧ (i 0).val < win0_2.index t 0 * 1024 + 1024
    rw [e0]; omega
  | ⟨1, _⟩ =>
    show win0_2.index t 1 * 1 ≤ (i 1).val ∧ (i 1).val < win0_2.index t 1 * 1 + 1
    rw [e1]; omega

/-- THE RESULT ARRAY after the grid: at every row, that row's denominator. -/
theorem final (c : Dev nD) : (dats m 0 c).arrAt 2 cfg0.N = outG m c :=
  (dats m 0 c).arrAt_eq_of_cover 2 (outG m c) (flushed_eq m c) (cover)

end Cert.Contrast.Kernel

end
-- ==== Proof.KernelRun.lean ====
/-
  The kernel's program run to its result.

  After the grid the program views the [8192, 1] array of denominators as a vector, forms the positives as the row
  sums of the product of the two halves (the same vector twice, joined), and computes
  (∑ over rows of −(positive / temperature − log denominator)) / 8192. Those lines read three arrays: the two halves,
  which the grid does not touch, and the grid's result array, which after the grid holds every row's denominator. So the
  program ends with its result at that one function of the two halves and of the array of denominators.
-/
import proofs.«106658_j73426760892667_1_alg».proof.Proof.Final
import Idealize.ShloMosaic.Lib.StableHlo.Run

noncomputable section

namespace Cert.Contrast.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The lines after the grid as one function of the two halves A, B and of the grid's result array O. -/
def lossOf (A B : FVec Ideal S4096x1024 .f32) (O : FVec Ideal S8192x1 .f32) : FVec Ideal S_ .f32 :=
  Host.divf (F := Ideal)
    (Host.reduceAdd (F := Ideal)
      (Host.negf (F := Ideal)
        (subf
          (Host.divf (F := Ideal)
            (concatenate S8192 0
              [⟨S4096, Host.reduceAdd (F := Ideal) (mulf A B) (constant (F := Ideal) S_ .f32 0x00000000#32)
                  reducesTo_S4096x1024_S4096_d1 h_S_⟩,
                ⟨S4096, Host.reduceAdd (F := Ideal) (mulf A B) (constant (F := Ideal) S_ .f32 0x00000000#32)
                  reducesTo_S4096x1024_S4096_d1 h_S_⟩]
              concatenates_S4096_S4096_S8192_d0)
            (broadcastInDim S8192 ![] bcast_S_S8192 (constant (F := Ideal) S_ .f32 0x3DCCCCCD#32)))
          (Host.log (F := Ideal) (shapeCast S8192 O shapeCasts_S8192x1_S8192))))
      (constant (F := Ideal) S_ .f32 0x00000000#32) reducesTo_S8192_S_d0 h_S_)
    (constant (F := Ideal) S_ .f32 0x46000000#32)

/-- What the lines after the grid leave in the result: that function of the two halves as the grid found them and of
    the grid's result array as the grid left it. -/
theorem tail_eq (c : Dev nD) :
    Pipeline.afterTail₀ cfgs (dats m) 0 (V0 m) [hostOps1] c main_v20
      = lossOf (V m c main_v2) (V m c main_v5) ((dats m 0 c).arrAt 2 cfg0.N) := by
  have h2 : Pipeline.withArrays (cfgs 0).spec c (V0 m c) (fun w => (dats m 0 c).arrAt w (cfgs 0).N) (Proc.devRef .tc main_v2)
      = V m c main_v2 :=
    Pipeline.withArrays_of_ne _ c (V0 m c) _ main_v2 (by exact (by decide : ∀ w, Pipeline.arrRef spec0 w ≠ main_v2))
  have h5 : Pipeline.withArrays (cfgs 0).spec c (V0 m c) (fun w => (dats m 0 c).arrAt w (cfgs 0).N) (Proc.devRef .tc main_v5)
      = V m c main_v5 :=
    Pipeline.withArrays_of_ne _ c (V0 m c) _ main_v5 (by exact (by decide : ∀ w, Pipeline.arrRef spec0 w ≠ main_v5))
  have h9 : Pipeline.withArrays (cfgs 0).spec c (V0 m c) (fun w => (dats m 0 c).arrAt w (cfgs 0).N) (Proc.devRef .tc main_v9)
      = (dats m 0 c).arrAt 2 cfg0.N :=
    Pipeline.withArrays_arr spec0 launch0.win.arr_inj c _ _ 2
  unfold Pipeline.afterTail₀
  show StableHlo.after hostOps1 _ (Proc.devRef .tc main_v20) = _
  after_results
  rw [h2, h5, h9]
  rfl

/-- THE RUN: every weakly fair execution of the kernel's program terminates with its result at that function of the
    two halves and of the array of denominators, the arguments unchanged. -/
theorem run : θ_run defs (onTc (τ := τ) (main (F := Ideal))) ⟨m, fun _ => 0, ρ⟩ fun r => ∀ c : Dev nD,
      r.2.mem ((c.tc : Thread nD τ).loc main_v20) = lossOf (V m c main_v2) (V m c main_v5) (outG m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans
        ((tail_eq m c).trans (congrArg (lossOf (V m c main_v2) (V m c main_v5)) (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Contrast.Kernel

end
-- ==== Proof.HostForms.lean ====
import proofs.«106658_j73426760892667_1_alg».proof.KernelIdeal
import proofs.«106658_j73426760892667_1_alg».proof.Proof.Spec
import Idealize.ShloMosaic.Lib.ValueIdx
import Idealize.ShloMosaic.Lib.Pipeline.Value
import Idealize.ShloMosaic.PureOps.Ideal.Laws

/-
  Three host operations of the kernel's program, read at an index over the extended reals.

  • The positives: the program multiplies the two normalised halves A, B : [4096, 1024] entry by entry and sums each
    row from the initial value +0.0. Row i of the result is 0 + ∑ d, A[i, d] · B[i, d], the specification's positive.
  • The denominators come back as a column [8192, 1] and are viewed as a vector [8192]: entry r of the vector is entry
    (r, 0) of the column (both have row-major position r).
  • The stack K : [8192, 1024] is handed to the kernel a second time transposed: the transposed array at (d, c) is K at
    (c, d).

  Each is stated twice: for any proof of the shape relation the operation takes (the form to apply to a term met in a
  goal, whatever proof it carries), and with the relation's proof named as the printed program names it.
-/

noncomputable section

namespace Cert.Contrast.Host

open Idealize.ShloMosaic Idealize.ShloMosaic.ValueIdx Cert.KernelIdeal

/-! ## For any proof of the shape relation -/

/-- The host's row sums of the product of the two halves are the specification's positives. -/
theorem pos_host_of (A B : FVec Ideal S4096x1024 .f32) (hred : S4096x1024.ReducesTo [1] S4096) (hS : 0 < S_.numel) :
    Host.reduceAdd (F := Ideal) (mulf A B) (constant (F := Ideal) S_ .f32 0x00000000#32) hred hS = Cert.Contrast.pos A B := by
  funext j
  show Ideal.hostReduceAdd hred (mulf A B) (Ideal.ofBits .f32 0x00000000#32) j
    = ∑ d : Fin 1024, A (ix2 (j 0) d) * B (ix2 (j 0) d)
  rw [Ideal.hostReduceAdd_single hred (by decide), Cert.Contrast.ofBits_zero, zero_add]
  refine Finset.sum_congr rfl fun k _ => ?_
  exact congrArg (fun y => A y * B y)
    (funext fun a => Fin.ext (by match a with | ⟨0, _⟩ => rfl | ⟨1, _⟩ => rfl))

/-- A column [8192, 1] viewed as a vector [8192]: entry r is the column's entry (r, 0). -/
theorem column_cast_of (O : FVec Ideal S8192x1 .f32) (h : S8192x1.ShapeCasts S8192) (r : Fin 8192) :
    shapeCast S8192 O h (ix1 r) = O (ix2 r (0 : Fin 1)) :=
  shapeCast_apply O h _ _ (by
    rw [Shape.rowMajor_val_two, Shape.rowMajor_val_one]
    show r.val * 1 + 0 = r.val
    rw [Nat.mul_one, Nat.add_zero])

/-- The transposed stack read at (d, c) is the stack at (c, d). -/
theorem transpose_stack_of (X : FVec Ideal S8192x1024 .bf16) (h : S8192x1024.Transposes [1, 0] S1024x8192)
    (d : Fin 1024) (c : Fin 8192) :
    transpose S1024x8192 [1, 0] X h (ix2 d c) = X (ix2 c d) :=
  transpose_apply [1, 0] X h (ix2 d c) (ix2 c d) (fun b => match b with
    | ⟨0, _⟩ => rfl
    | ⟨1, _⟩ => rfl)

/-! ## With the proofs the printed program names -/

section
variable [Cert.KernelIdeal.Facts]
open Cert.KernelIdeal.Facts₀

/-- The host's row sums of the product of the two halves are the specification's positives. -/
theorem pos_host (A B : FVec Ideal S4096x1024 .f32) :
    Host.reduceAdd (F := Ideal) (mulf A B) (constant S_ .f32 0x00000000#32) reducesTo_S4096x1024_S4096_d1 h_S_ = Cert.Contrast.pos A B :=
  pos_host_of A B _ _

/-- The kernel's [8192,1] result viewed as a vector [8192]: entry r is the column's entry (r, 0). -/
theorem column_cast (O : FVec Ideal S8192x1 .f32) (r : Fin 8192) :
    shapeCast S8192 O shapeCasts_S8192x1_S8192 (ix1 r) = O (ix2 r (0 : Fin 1)) :=
  column_cast_of O _ r

/-- The transposed stack read at (d, c) is the stack at (c, d). -/
theorem transpose_stack (X : FVec Ideal S8192x1024 .bf16) (d : Fin 1024) (c : Fin 8192) :
    transpose S1024x8192 [1, 0] X transposes_S8192x1024_S1024x8192_1_0 (ix2 d c) = X (ix2 c d) :=
  transpose_stack_of X _ d c

end

end Cert.Contrast.Host

end
-- ==== Proof.LibPairGather.lean ====
/-
  A gather of single elements of a matrix at (row, column) pairs, read at an index.

  Picking one element of a matrix `x : [N, M]` per entry of a list of `E` (row, column) pairs — a diagonal of the
  matrix is the case where the pairs are (e, e + k) — is the gather whose start indices have shape `[E, 2]` (row `e`
  holds the pair), with offset_dims `[]`, collapsed_slice_dims `[0, 1]`, start_index_map `[0, 1]`,
  index_vector_dim `1` and slice_sizes `[1, 1]`. Every slice is a single element, there are no batching axes and no
  offset axes, so result entry `e` is the operand at (row, column) = (idx[e, 0], idx[e, 1]), each component read as a
  signed integer and clamped into `[0, N − 1]`, respectively `[0, M − 1]`, as the gather clamps every start index.
-/
import Idealize.ShloMosaic.Lib.ValueIdx

namespace Cert.PairGather

open Idealize.ShloMosaic Idealize.ShloMosaic.ValueIdx

variable {α : Type}

/-- Those dimension numbers for an operand `[N, M]`, start indices `[E, 2]` and result `[E]`; their conditions `wf`
    are decided on a program's literal shapes. -/
abbrev pairDims (N M E : Nat)
    (wf : GatherDims.WF ⟨2, ![N, M]⟩ ⟨2, ![E, 2]⟩ ⟨1, ![E]⟩ [] [0, 1] [] [0, 1] [] 1 ![1, 1]) :
    GatherDims ⟨2, ![N, M]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE GATHER READ AT ENTRY `e`: the operand at the row `idx[e, 0]` and the column `idx[e, 1]`, each read signed and
    clamped into the operand's extent on its axis. -/
theorem gather_pair_apply {N M E w : Nat} (hN : 0 < N) (hM : 0 < M)
    (wf : GatherDims.WF ⟨2, ![N, M]⟩ ⟨2, ![E, 2]⟩ ⟨1, ![E]⟩ [] [0, 1] [] [0, 1] [] 1 ![1, 1])
    (x : (⟨2, ![N, M]⟩ : Shape).Idx → α) (idx : IVec ⟨2, ![E, 2]⟩ w) (e : Fin E) :
    Host.gather (pairDims N M E wf) x idx (ix1 e) =
      x (ix2 (⟨min (idx (ix2 e (0 : Fin 2))).toInt.toNat (N - 1), by omega⟩ : Fin N)
             (⟨min (idx (ix2 e (1 : Fin 2))).toInt.toNat (M - 1), by omega⟩ : Fin M)) := by
  unfold Host.gather
  congr 1
  funext a
  refine Fin.ext ?_
  match a with
  | ⟨0, _⟩ =>
    show (pairDims N M E wf).start (ix1 e) idx 0 + (pairDims N M E wf).batchCoord (ix1 e) 0
      + (pairDims N M E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (pairDims N M E wf).startIndexMap from by simp)]
    have hsi : (pairDims N M E wf).siIdx (ix1 e) ⟨List.idxOf (0 : Fin 2) (pairDims N M E wf).startIndexMap,
        List.idxOf_lt_length_iff.2 (by simp)⟩ = ix2 e (0 : Fin 2) := by
      funext b; refine Fin.ext ?_
      match b with
      | ⟨0, _⟩ => rfl
      | ⟨1, _⟩ => rfl
    rw [hsi]
    rfl
  | ⟨1, _⟩ =>
    show (pairDims N M E wf).start (ix1 e) idx 1 + (pairDims N M E wf).batchCoord (ix1 e) 1
      + (pairDims N M E wf).offCoord (ix1 e) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 2) ∈ (pairDims N M E wf).startIndexMap from by simp)]
    have hsi : (pairDims N M E wf).siIdx (ix1 e) ⟨List.idxOf (1 : Fin 2) (pairDims N M E wf).startIndexMap,
        List.idxOf_lt_length_iff.2 (by simp)⟩ = ix2 e (1 : Fin 2) := by
      funext b; refine Fin.ext ?_
      match b with
      | ⟨0, _⟩ => rfl
      | ⟨1, _⟩ => rfl
    rw [hsi]
    rfl

end Cert.PairGather
-- ==== Proof.RefWords.lean ====
/-
  Facts about the 32-bit index words the reference builds its two diagonals and its mask from.

  An index below 2^31, written as a 32-bit word, is non-negative when the word is read as a signed integer, so the
  "add the length when negative" step that normalises a possibly negative index keeps it, and reading the word back
  as a signed integer gives the index again. Two indices below 2^32 have equal words exactly when they are equal,
  which turns the mask "row word + 0 ≠ column word" into "row ≠ column".
-/
import Idealize.ShloMosaic.Lib.ValueIdx

namespace Cert.Contrast.Ref

open Idealize.ShloMosaic Idealize.ShloMosaic.ValueIdx

/-- The word of a natural below 2^31 reads, signed, as that natural. -/
theorem toInt_ofNat_small (n : Nat) (h : n < 2147483648) : (BitVec.ofNat 32 n).toInt = (n : Int) := by
  rw [BitVec.toInt_eq_toNat_cond, BitVec.toNat_ofNat]
  have hm : n % 2 ^ 32 = n := Nat.mod_eq_of_lt (by omega)
  rw [hm]
  split <;> omega

/-- ... and, read signed and then as a natural, gives the natural back. -/
theorem toInt_toNat_ofNat_small (n : Nat) (h : n < 2147483648) : (BitVec.ofNat 32 n).toInt.toNat = n := by
  rw [toInt_ofNat_small n h]; exact Int.toNat_natCast n

/-- The word of a natural below 2^31 is not negative as a signed integer. -/
theorem slt_zero_ofNat_small (n : Nat) (h : n < 2147483648) : (BitVec.ofNat 32 n).slt 0#32 = false := by
  rw [BitVec.slt, toInt_ofNat_small n h]
  simp

/-- Normalising a possibly negative index (add the length when the index is negative) keeps an index below 2^31. -/
theorem wrap_small (n : Nat) (h : n < 2147483648) (len : BitVec 32) :
    Scalar.select (IntOp.cmpi .slt (BitVec.ofNat 32 n) 0#32) (IntOp.addi (BitVec.ofNat 32 n) len) (BitVec.ofNat 32 n)
      = BitVec.ofNat 32 n := by
  unfold IntOp.cmpi
  simp only [slt_zero_ofNat_small n h]
  exact select_zero _ _

/-- The sum of the words of two naturals is the word of their sum. -/
theorem addi_ofNat (a b : Nat) : IntOp.addi (BitVec.ofNat 32 a) (BitVec.ofNat 32 b) = BitVec.ofNat 32 (a + b) :=
  (BitVec.ofNat_add a b).symm

/-- Two naturals below 2^32 have the same word only when they are equal. -/
theorem ofNat_inj_small (a b : Nat) (ha : a < 4294967296) (hb : b < 4294967296)
    (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- The mask bit "row word + 0 is not the column word": 0 on the diagonal, 1 off it. -/
theorem mask_word (r c : Nat) (hr : r < 4294967296) (hc : c < 4294967296) :
    ~~~(IntOp.cmpi .eq (IntOp.addi (BitVec.ofNat 32 r) 0#32) (BitVec.ofNat 32 c)) = if r = c then 0#1 else 1#1 := by
  unfold IntOp.cmpi IntOp.addi
  rw [BitVec.add_zero]
  by_cases h : r = c
  · subst h
    rw [if_pos rfl]
    simp
  · rw [if_neg h]
    have hne : BitVec.ofNat 32 r ≠ BitVec.ofNat 32 c := fun e => h (ofNat_inj_small r c hr hc e)
    have : (BitVec.ofNat 32 r == BitVec.ofNat 32 c) = false := by simpa using hne
    simp only [this]
    decide

/-- Choosing by that bit: the second operand on the diagonal, the first off it. -/
theorem select_mask {α : Type} (p : Prop) [Decidable p] (a b : α) :
    Scalar.select (if p then 0#1 else 1#1) a b = if p then b else a := by
  by_cases h : p
  · rw [if_pos h, if_pos h]; exact select_zero a b
  · rw [if_neg h, if_neg h]; exact select_one a b

end Cert.Contrast.Ref
-- ==== Proof.RefRows.lean ====
/-
  The reference's two intermediate vectors, read as the specification's functions over the extended reals.

  The reference stacks the two normalised halves A and B into K (rows 0 … 4095 are A's, rows 4096 … 8191 are B's),
  forms the whole matrix of scalar products s(r, c) = ∑ d, K[r, d] · K[c, d], and then

  • takes the two off-diagonals s(e, e + 4096) and s(e + 4096, e) for e < 4096 by picking one matrix element per
    (row, column) pair; both are the scalar product of row e of A with row e of B — the second because a product of
    extended reals commutes;
  • divides every entry by the temperature (which is multiplying by its reciprocal β), exponentiates, replaces the
    diagonal entries by 0 and sums each row, starting from 0: the specification's denominator of that row.
-/
import proofs.«106658_j73426760892667_1_alg».proof.Proof.Gen.ReferenceIdeal.Read
import proofs.«106658_j73426760892667_1_alg».proof.Proof.Spec
import proofs.«106658_j73426760892667_1_alg».proof.Proof.LibPairGather
import proofs.«106658_j73426760892667_1_alg».proof.Proof.RefWords
import Idealize.ShloMosaic.Lib.ValueIdx
import Idealize.ShloMosaic.Lib.Pipeline.Value
import Idealize.ShloMosaic.PureOps.Ideal.Laws

noncomputable section

namespace Cert.Contrast.Ref

open Idealize.ShloMosaic Idealize.ShloMosaic.ValueIdx Cert.ReferenceIdeal Cert.ReferenceIdeal.Gen Cert.ReferenceIdeal.Read

/-! ## The stacked matrix K, row by row -/

/-- A row of K below 4096 is that row of A. -/
theorem K_top (x0 x1 : (⟨S4096x1024, .f32⟩ : BufTy).Contents (Elt Ideal)) (n : Nat) (h : n < 4096) (d : Fin 1024) :
    val_main_v6 (F := Ideal) x0 x1 (ix2 (⟨n, by omega⟩ : Fin 8192) d)
      = val_main_v2 (F := Ideal) x0 (ix2 (⟨n, h⟩ : Fin 4096) d) := by
  unfold val_main_v6
  generalize val_main_v2 (F := Ideal) x0 = A
  generalize val_main_v5 (F := Ideal) x1 = B
  exact concatenate_pair_apply_left (t := S8192x1024) (s₁ := S4096x1024) (s₂ := S4096x1024) 0 A B _
    (ix2 (⟨n, by omega⟩ : Fin 8192) d) rfl (ix2 (⟨n, h⟩ : Fin 4096) d)
    (fun b => match b with | ⟨0, _⟩ => rfl | ⟨1, _⟩ => rfl)

/-- Row 4096 + n of K is row n of B. -/
theorem K_bot (x0 x1 : (⟨S4096x1024, .f32⟩ : BufTy).Contents (Elt Ideal)) (n : Nat) (h : n < 4096) (d : Fin 1024) :
    val_main_v6 (F := Ideal) x0 x1 (ix2 (⟨n + 4096, by omega⟩ : Fin 8192) d)
      = val_main_v5 (F := Ideal) x1 (ix2 (⟨n, h⟩ : Fin 4096) d) := by
  unfold val_main_v6
  generalize val_main_v2 (F := Ideal) x0 = A
  generalize val_main_v5 (F := Ideal) x1 = B
  exact concatenate_pair_apply_right (t := S8192x1024) (s₁ := S4096x1024) (s₂ := S4096x1024) 0 A B _
    (ix2 (⟨n + 4096, by omega⟩ : Fin 8192) d) rfl rfl (ix2 (⟨n, h⟩ : Fin 4096) d)
    (fun b hb => match b, hb with | ⟨0, _⟩, hb => (hb (Fin.ext rfl)).elim | ⟨1, _⟩, _ => rfl)
    rfl

/-! ## The matrix of scalar products -/

/-- Entry (r, c) of K·Kᵀ is the scalar product of rows r and c of K. -/
theorem gram_at (x0 x1 : (⟨S4096x1024, .f32⟩ : BufTy).Contents (Elt Ideal)) (r c : Fin 8192) :
    val_main_v8 (F := Ideal) x0 x1 (ix2 r c) = Cert.Contrast.sim (val_main_v6 (F := Ideal) x0 x1) r c := by
  rw [val_main_v8_apply]
  unfold Cert.Contrast.sim
  refine Finset.sum_congr rfl fun k _ => ?_
  rw [val_main_v7_apply]
  generalize val_main_v6 (F := Ideal) x0 x1 = K
  have e1 : lidx_main_v8 (ix2 r c) k = ix2 r k :=
    funext fun a => Fin.ext (by match a with | ⟨0, _⟩ => rfl | ⟨1, _⟩ => rfl)
  have e2 : idx_main_v7 (ridx_main_v8 (ix2 r c) k) = ix2 c k :=
    funext fun a => Fin.ext (by match a with | ⟨0, _⟩ => rfl | ⟨1, _⟩ => rfl)
  exact congrArg₂ (· * ·) (congrArg K e1) (congrArg K e2)

/-- The scalar product of row e of K with row e + 4096 is the positive of e. -/
theorem sim_top_bot (x0 x1 : (⟨S4096x1024, .f32⟩ : BufTy).Contents (Elt Ideal)) (e : Fin 4096) :
    Cert.Contrast.sim (val_main_v6 (F := Ideal) x0 x1) (⟨e.val, by omega⟩ : Fin 8192) (⟨e.val + 4096, by omega⟩ : Fin 8192)
      = Cert.Contrast.pos (val_main_v2 (F := Ideal) x0) (val_main_v5 (F := Ideal) x1) (ix1 e) := by
  unfold Cert.Contrast.sim Cert.Contrast.pos
  refine Finset.sum_congr rfl fun d _ => ?_
  rw [K_top x0 x1 e.val e.isLt d, K_bot x0 x1 e.val e.isLt d]

/-- The scalar product of row e + 4096 of K with row e is the same number: the products commute. -/
theorem sim_bot_top (x0 x1 : (⟨S4096x1024, .f32⟩ : BufTy).Contents (Elt Ideal)) (e : Fin 4096) :
    Cert.Contrast.sim (val_main_v6 (F := Ideal) x0 x1) (⟨e.val + 4096, by omega⟩ : Fin 8192) (⟨e.val, by omega⟩ : Fin 8192)
      = Cert.Contrast.pos (val_main_v2 (F := Ideal) x0) (val_main_v5 (F := Ideal) x1) (ix1 e) := by
  unfold Cert.Contrast.sim Cert.Contrast.pos
  refine Finset.sum_congr rfl fun d _ => ?_
  rw [K_top x0 x1 e.val e.isLt d, K_bot x0 x1 e.val e.isLt d, mul_comm]

/-! ## The start indices of the two diagonals -/

/-- The normalised index e of the first diagonal's rows, and of the second's columns. -/
theorem call2_v8_at (e : Fin 4096) : val_main_call2_v8 (F := Ideal) (ix1 e) = BitVec.ofNat 32 e.val := by
  rw [val_main_call2_v8_apply, val_main_call2_v5_apply, val_main_call2_v7_apply, val_main_call2_v0_apply,
    val_main_call2_v4_apply, val_main_call2_c_0_apply, val_main_call2_v6_apply, val_main_call2_c_1_apply]
  exact wrap_small e.val (by omega) 8192#32

/-- The normalised index e + 4096 of the first diagonal's columns. -/
theorem call2_v13_at (e : Fin 4096) : val_main_call2_v13 (F := Ideal) (ix1 e) = BitVec.ofNat 32 (e.val + 4096) := by
  rw [val_main_call2_v13_apply, val_main_call2_v10_apply, val_main_call2_v12_apply, val_main_call2_v3_apply,
    val_main_call2_v2_apply, val_main_call2_c_apply, val_main_call2_v1_apply, val_main_call2_v9_apply,
    val_main_call2_c_2_apply, val_main_call2_v11_apply, val_main_call2_c_3_apply]
  show Scalar.select (IntOp.cmpi .slt (IntOp.addi (BitVec.ofNat 32 4096) (BitVec.ofNat 32 e.val)) 0#32)
    (IntOp.addi (IntOp.addi (BitVec.ofNat 32 4096) (BitVec.ofNat 32 e.val)) 8192#32)
    (IntOp.addi (BitVec.ofNat 32 4096) (BitVec.ofNat 32 e.val)) = BitVec.ofNat 32 (e.val + 4096)
  rw [addi_ofNat 4096 e.val, Nat.add_comm 4096 e.val]
  exact wrap_small (e.val + 4096) (by omega) 8192#32

/-- The normalised index e + 4096 of the second diagonal's rows. -/
theorem call3_v8_at (e : Fin 4096) : val_main_call3_v8 (F := Ideal) (ix1 e) = BitVec.ofNat 32 (e.val + 4096) := by
  rw [val_main_call3_v8_apply, val_main_call3_v5_apply, val_main_call3_v7_apply, val_main_call3_v3_apply,
    val_main_call3_v2_apply, val_main_call3_c_apply, val_main_call3_v1_apply, val_main_call3_v4_apply,
    val_main_call3_c_0_apply, val_main_call3_v6_apply, val_main_call3_c_1_apply]
  show Scalar.select (IntOp.cmpi .slt (IntOp.addi (BitVec.ofNat 32 4096) (BitVec.ofNat 32 e.val)) 0#32)
    (IntOp.addi (IntOp.addi (BitVec.ofNat 32 4096) (BitVec.ofNat 32 e.val)) 8192#32)
    (IntOp.addi (BitVec.ofNat 32 4096) (BitVec.ofNat 32 e.val)) = BitVec.ofNat 32 (e.val + 4096)
  rw [addi_ofNat 4096 e.val, Nat.add_comm 4096 e.val]
  exact wrap_small (e.val + 4096) (by omega) 8192#32

/-- The normalised index e of the second diagonal's columns. -/
theorem call3_v13_at (e : Fin 4096) : val_main_call3_v13 (F := Ideal) (ix1 e) = BitVec.ofNat 32 e.val := by
  rw [val_main_call3_v13_apply, val_main_call3_v10_apply, val_main_call3_v12_apply, val_main_call3_v0_apply,
    val_main_call3_v9_apply, val_main_call3_c_2_apply, val_main_call3_v11_apply, val_main_call3_c_3_apply]
  exact wrap_small e.val (by omega) 8192#32

/-- Row e of the first diagonal's index pairs: its row component … -/
theorem call2_col0 (e : Fin 4096) :
    val_main_call2_v16 (F := Ideal) (ix2 e (0 : Fin 2)) = BitVec.ofNat 32 e.val := by
  unfold val_main_call2_v16
  refine Eq.trans (concatenate_pair_apply_left (t := S4096x2) (s₁ := S4096x1) (s₂ := S4096x1) 1 _ _ _
    (ix2 e (0 : Fin 2)) rfl (ix2 e (0 : Fin 1)) (fun b => match b with | ⟨0, _⟩ => rfl | ⟨1, _⟩ => rfl)) ?_
  rw [val_main_call2_v14_apply]
  exact (congrArg _ (funext fun a => Fin.ext (by match a with | ⟨0, _⟩ => rfl))).trans (call2_v8_at e)

/-- … and its column component. -/
theorem call2_col1 (e : Fin 4096) :
    val_main_call2_v16 (F := Ideal) (ix2 e (1 : Fin 2)) = BitVec.ofNat 32 (e.val + 4096) := by
  unfold val_main_call2_v16
  refine Eq.trans (concatenate_pair_apply_right (t := S4096x2) (s₁ := S4096x1) (s₂ := S4096x1) 1 _ _ _
    (ix2 e (1 : Fin 2)) rfl rfl (ix2 e (0 : Fin 1))
    (fun b hb => match b, hb with | ⟨0, _⟩, _ => rfl | ⟨1, _⟩, hb => (hb (Fin.ext rfl)).elim) rfl) ?_
  rw [val_main_call2_v15_apply]
  exact (congrArg _ (funext fun a => Fin.ext (by match a with | ⟨0, _⟩ => rfl))).trans (call2_v13_at e)

/-- Row e of the second diagonal's index pairs: its row component … -/
theorem call3_col0 (e : Fin 4096) :
    val_main_call3_v16 (F := Ideal) (ix2 e (0 : Fin 2)) = BitVec.ofNat 32 (e.val + 4096) := by
  unfold val_main_call3_v16
  refine Eq.trans (concatenate_pair_apply_left (t := S4096x2) (s₁ := S4096x1) (s₂ := S4096x1) 1 _ _ _
    (ix2 e (0 : Fin 2)) rfl (ix2 e (0 : Fin 1)) (fun b => match b with | ⟨0, _⟩ => rfl | ⟨1, _⟩ => rfl)) ?_
  rw [val_main_call3_v14_apply]
  exact (congrArg _ (funext fun a => Fin.ext (by match a with | ⟨0, _⟩ => rfl))).trans (call3_v8_at e)

/-- … and its column component. -/
theorem call3_col1 (e : Fin 4096) :
    val_main_call3_v16 (F := Ideal) (ix2 e (1 : Fin 2)) = BitVec.ofNat 32 e.val := by
  unfold val_main_call3_v16
  refine Eq.trans (concatenate_pair_apply_right (t := S4096x2) (s₁ := S4096x1) (s₂ := S4096x1) 1 _ _ _
    (ix2 e (1 : Fin 2)) rfl rfl (ix2 e (0 : Fin 1))
    (fun b hb => match b, hb with | ⟨0, _⟩, _ => rfl | ⟨1, _⟩, hb => (hb (Fin.ext rfl)).elim) rfl) ?_
  rw [val_main_call3_v15_apply]
  exact (congrArg _ (funext fun a => Fin.ext (by match a with | ⟨0, _⟩ => rfl))).trans (call3_v13_at e)

/-! ## Picking one matrix element per index pair -/

/-- When row e of the index pairs holds the words of a row a and a column b of the matrix, entry e of the picked
    vector is the matrix at (a, b): both components are non-negative and in range, so nothing is clamped. -/
theorem diag_gather {α : Type} (X : S8192x8192.Idx → α) (IDX : IVec S4096x2 32) (e : Fin 4096)
    (a b : Nat) (ha : a < 8192) (hb : b < 8192)
    (h0 : IDX (ix2 e (0 : Fin 2)) = BitVec.ofNat 32 a) (h1 : IDX (ix2 e (1 : Fin 2)) = BitVec.ofNat 32 b) :
    Host.gather gather_S8192x8192_S4096x2_S4096_n_01_n_n_01_1_11 X IDX (ix1 e)
      = X (ix2 (⟨a, ha⟩ : Fin 8192) (⟨b, hb⟩ : Fin 8192)) := by
  refine (Cert.PairGather.gather_pair_apply (N := 8192) (M := 8192) (E := 4096) (by decide) (by decide)
    gather_S8192x8192_S4096x2_S4096_n_01_n_n_01_1_11_wf X IDX e).trans ?_
  refine congrArg X (funext fun ax => Fin.ext ?_)
  match ax with
  | ⟨0, _⟩ =>
    show min (IDX (ix2 e (0 : Fin 2))).toInt.toNat (8192 - 1) = a
    rw [h0, toInt_toNat_ofNat_small a (by omega)]; omega
  | ⟨1, _⟩ =>
    show min (IDX (ix2 e (1 : Fin 2))).toInt.toNat (8192 - 1) = b
    rw [h1, toInt_toNat_ofNat_small b (by omega)]; omega

/-! ## The two off-diagonals -/

/-- The first off-diagonal of K·Kᵀ: entry i is the scalar product of row i of A with row i of B. -/
theorem pos_first (x0 x1 : (⟨S4096x1024, .f32⟩ : BufTy).Contents (Elt Ideal)) :
    val_main_v9 (F := Ideal) x0 x1 = Cert.Contrast.pos (val_main_v2 (F := Ideal) x0) (val_main_v5 (F := Ideal) x1) := by
  funext i
  obtain ⟨e, rfl⟩ : ∃ e : Fin 4096, i = ix1 e := ⟨i 0, eq_ix1 i⟩
  have hg : val_main_v9 (F := Ideal) x0 x1 (ix1 e)
      = val_main_v8 (F := Ideal) x0 x1 (ix2 (⟨e.val, by omega⟩ : Fin 8192) (⟨e.val + 4096, by omega⟩ : Fin 8192)) := by
    unfold val_main_v9
    generalize val_main_v8 (F := Ideal) x0 x1 = X
    exact diag_gather X _ e e.val (e.val + 4096) _ _ (call2_col0 e) (call2_col1 e)
  rw [hg, gram_at]
  exact sim_top_bot x0 x1 e

/-- The second off-diagonal is the same vector: the products commute. -/
theorem pos_second (x0 x1 : (⟨S4096x1024, .f32⟩ : BufTy).Contents (Elt Ideal)) :
    val_main_v10 (F := Ideal) x0 x1 = Cert.Contrast.pos (val_main_v2 (F := Ideal) x0) (val_main_v5 (F := Ideal) x1) := by
  funext i
  obtain ⟨e, rfl⟩ : ∃ e : Fin 4096, i = ix1 e := ⟨i 0, eq_ix1 i⟩
  have hg : val_main_v10 (F := Ideal) x0 x1 (ix1 e)
      = val_main_v8 (F := Ideal) x0 x1 (ix2 (⟨e.val + 4096, by omega⟩ : Fin 8192) (⟨e.val, by omega⟩ : Fin 8192)) := by
    unfold val_main_v10
    generalize val_main_v8 (F := Ideal) x0 x1 = X
    exact diag_gather X _ e (e.val + 4096) e.val _ _ (call3_col0 e) (call3_col1 e)
  rw [hg, gram_at]
  exact sim_bot_top x0 x1 e

/-! ## The masked row sums -/

/-- Entry (r, c) of the masked matrix of exponentials is what column c contributes to row r's denominator. -/
theorem masked_at (x0 x1 : (⟨S4096x1024, .f32⟩ : BufTy).Contents (Elt Ideal)) (r c : Fin 8192) :
    val_main_v21 (F := Ideal) x0 x1 (ix2 r c) = Cert.Contrast.term (val_main_v6 (F := Ideal) x0 x1) r c := by
  rw [val_main_v21_apply, val_main_v17_apply, val_main_v16_apply, val_main_v15_apply, val_main_v12_apply,
    val_main_v14_apply, val_main_c_apply, val_main_v13_apply, val_main_v20_apply, val_main_v19_apply,
    val_main_v18_apply, val_main_cst_apply, val_main_call4_v1_apply, val_main_call4_v0_apply, val_main_cst_0_apply,
    gram_at]
  generalize val_main_v6 (F := Ideal) x0 x1 = K
  rw [show ((ix2 r c : S8192x8192.Idx) 0).val = r.val from rfl, show ((ix2 r c : S8192x8192.Idx) 1).val = c.val from rfl,
    mask_word r.val c.val (by omega) (by omega), select_mask]
  simp only [Ideal.hostUnary_exp_def, Ideal.hostDivf_def, Ideal.ofBits_def, Cert.Contrast.ofBits_tau,
    Cert.Contrast.ofBits_zero, Cert.Contrast.div_tau]
  unfold Cert.Contrast.term
  by_cases h : r = c
  · rw [if_pos h, if_pos (congrArg Fin.val h)]
  · rw [if_neg h, if_neg (fun hv => h (Fin.ext hv))]

/-- The masked row sums are the specification's denominators of K. -/
theorem denom_rows (x0 x1 : (⟨S4096x1024, .f32⟩ : BufTy).Contents (Elt Ideal)) :
    val_main_v22 (F := Ideal) x0 x1 = Cert.Contrast.denom (val_main_v6 (F := Ideal) x0 x1) := by
  funext i
  obtain ⟨r, rfl⟩ : ∃ r : Fin 8192, i = ix1 r := ⟨i 0, eq_ix1 i⟩
  rw [val_main_v22_apply, val_main_cst_1_apply, Ideal.ofBits_def, Cert.Contrast.ofBits_zero, zero_add]
  unfold Cert.Contrast.denom
  refine Finset.sum_congr rfl fun k _ => ?_
  have ei : idx_main_v22 (ix1 r) k = ix2 r k :=
    funext fun a => Fin.ext (by match a with | ⟨0, _⟩ => rfl | ⟨1, _⟩ => rfl)
  rw [ei]
  exact masked_at x0 x1 r k

end Cert.Contrast.Ref

end
-- ==== Proof.Bridge.lean ====
/-
  The two programs end with the same number.

  Take the two argument arrays. Both programs form the same two normalised halves A, B and the same stack K. Then
    • the reference's positives are the two off-diagonals of K · Kᵀ, each the vector of scalar products of row i of A
      with row i of B — which is the kernel program's row sum of A · B, joined with itself;
    • the reference's masked row sums of exp (K · Kᵀ / temperature) are the rows' denominators of K — which is what the
      kernel's grid leaves in its result array, viewed as a vector;
  and from there both programs run the same lines: divide the positives by the temperature, subtract the logarithm of
  the denominators, negate, sum, divide by 8192. Equal inputs to the same lines give equal results; no law beyond the
  ones already used (regrouping a sum, commuting a product, division by the temperature as multiplication by its
  reciprocal) is needed, and none of them asks for finiteness.
-/
import proofs.«106658_j73426760892667_1_alg».proof.Proof.KernelRun
import proofs.«106658_j73426760892667_1_alg».proof.Proof.HostForms
import proofs.«106658_j73426760892667_1_alg».proof.Proof.RefRows

noncomputable section

namespace Cert.Contrast.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The grid's result array viewed as a vector is the reference's vector of masked row sums. -/
theorem denoms_eq (c : Dev nD) :
    shapeCast S8192 (outG m c) shapeCasts_S8192x1_S8192
      = Cert.ReferenceIdeal.Read.val_main_v22 (F := Ideal) (m ((c.tc : Thread nD τ).loc main_arg0))
          (m ((c.tc : Thread nD τ).loc main_arg1)) := by
  funext i
  obtain ⟨r, rfl⟩ : ∃ r : Fin 8192, i = ix1 r := ⟨i 0, eq_ix1 i⟩
  rw [Cert.Contrast.Host.column_cast_of, Cert.Contrast.Ref.denom_rows]
  show denom (stack m c) (ix1 r) = denom _ (ix1 r)
  exact congrArg (fun K => denom K (ix1 r)) (funext fun j => entry_stack m c j)

/-- THE BRIDGE: the reference's result at the kernel program's arguments is the kernel program's result. -/
theorem result_eq (c : Dev nD) :
    Cert.ReferenceIdeal.Read.val_main_v29 (F := Ideal) (m ((c.tc : Thread nD τ).loc main_arg0))
        (m ((c.tc : Thread nD τ).loc main_arg1))
      = lossOf (V m c main_v2) (V m c main_v5) (outG m c) := by
  rw [entry_first m c, entry_second m c]
  unfold lossOf
  rw [Cert.Contrast.Host.pos_host_of, denoms_eq m c]
  simp only [Cert.ReferenceIdeal.Read.val_main_v29, Cert.ReferenceIdeal.Read.val_main_v28, Cert.ReferenceIdeal.Read.val_main_v27,
    Cert.ReferenceIdeal.Read.val_main_v26, Cert.ReferenceIdeal.Read.val_main_v25, Cert.ReferenceIdeal.Read.val_main_v24,
    Cert.ReferenceIdeal.Read.val_main_v23, Cert.ReferenceIdeal.Read.val_main_v11, Cert.ReferenceIdeal.Read.val_main_cst_2,
    Cert.ReferenceIdeal.Read.val_main_cst_3, Cert.ReferenceIdeal.Read.val_main_cst_4]
  rw [Cert.Contrast.Ref.pos_first, Cert.Contrast.Ref.pos_second]

end Cert.Contrast.Kernel

end
-- ==== Proof.lean ====
/-
  The certificate of a contrastive-loss kernel against its reference.

  Both programs take two arrays [4096, 1024], normalise each row to unit length, stack the two halves into K : [8192, 1024]
  and return (1 / 8192) · ∑ r, −(positive r / temperature − log (denominator r)), where the positive of row r is the scalar
  product of the two halves' rows r mod 4096, and the denominator of row r is ∑ over c ≠ r of exp (⟨K r, K c⟩ / temperature).

  The kernel computes the denominators on an 8 × 8 grid of 1024 × 1024 tiles — a matrix product of a row tile of K with a
  column tile of Kᵀ, scaled, exponentiated, the diagonal entry replaced by 0, summed along the lanes and accumulated over the
  column tiles in a carried column — and scales by the constant it spells 1.0 / temperature, where the reference divides
  by the temperature. The temperature is held as the single-precision number nearest 0.1, namely 13421773 / 2^27; the
  kernel's constant is read as its exact reciprocal 2^27 / 13421773, which is the number the reference's division computes
  with and whose nearest single-precision number is the 10.0 the kernel holds. With that reading the two programs are one
  function over the extended reals: the tiles' partial sums regroup the reference's row sums (addition is commutative and
  associative, infinities included), the two off-diagonals the reference reads are the same scalar products (a product
  commutes), and dividing by the temperature is multiplying by its reciprocal — none of which asks the inputs to be finite.

    frames      each program terminates without a fault and leaves its arguments unchanged: the kernel's two readings by their
                frame certificates, the reference by its run.
    preserves   the one rewrite of the idealization: the named constant denotes 2^27 / 13421773.
    algebraic   the kernel program's run ends at one function of the two halves and of the array of denominators; the
                reference's run ends at its own term of the arguments; for agreeing arguments the two are equal.
-/
import proofs.«106658_j73426760892667_1_alg».proof.Defs
import proofs.«106658_j73426760892667_1_alg».proof.Proof.Gen.Kernel
import proofs.«106658_j73426760892667_1_alg».proof.Proof.Gen.Kernel.Frame
import proofs.«106658_j73426760892667_1_alg».proof.Proof.Gen.KernelIdeal
import proofs.«106658_j73426760892667_1_alg».proof.Proof.Gen.KernelIdeal.Frame
import proofs.«106658_j73426760892667_1_alg».proof.Proof.Gen.ReferenceIdeal
import proofs.«106658_j73426760892667_1_alg».proof.Proof.Gen.Pre_finite_inputs
import proofs.«106658_j73426760892667_1_alg».proof.Proof.Gen.ReferenceIdeal.Run
import proofs.«106658_j73426760892667_1_alg».proof.Proof.Gen.ReferenceIdeal.Read
import proofs.«106658_j73426760892667_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's scaling constant, named the reciprocal of the temperature, denotes 2^27 / 13421773. -/
theorem preserves : Cert.preserves_Kernel_KernelIdeal :=
  IdealRules.named_const.statement Cert.KernelIdeal.κ "inv_tau" .f32 0x41200000#32 ((134217728 / 13421773 : ℝ) : EReal) rfl

/-- Run from memories that agree on the two arguments, both programs end with the same loss. -/
theorem algebraic : Cert.algebraic_KernelIdeal_ReferenceIdeal := by
  intro m ρ m' ρ' _ hagree
  refine ⟨fun c => Cert.Contrast.Kernel.lossOf (Cert.KernelIdeal.Gen.V m c Cert.KernelIdeal.main_v2)
      (Cert.KernelIdeal.Gen.V m c Cert.KernelIdeal.main_v5) (Cert.Contrast.Kernel.outG m c),
    Cert.Contrast.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  exact Cert.Contrast.Kernel.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
